-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x1024 : Shape := ⟨2, ![16384, 1024]⟩
abbrev S4x1024x512 : Shape := ⟨3, ![4, 1024, 512]⟩
abbrev S4x1024 : Shape := ⟨2, ![4, 1024]⟩
abbrev S4x1024x1024 : Shape := ⟨3, ![4, 1024, 1024]⟩
abbrev S512x1024 : Shape := ⟨2, ![512, 1024]⟩
abbrev S512 : Shape := ⟨1, ![512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  bcast_S_S4x1024x512 : S_.BroadcastsInDim S4x1024x512 (![] : Fin 0 → Fin S4x1024x512.rank)
  reducesTo_S4x1024x512_S_d0_1_2 : S4x1024x512.ReducesTo [0, 1, 2] S_
  bcast_S_S4x1024 : S_.BroadcastsInDim S4x1024 (![] : Fin 0 → Fin S4x1024.rank)
  reducesTo_S4x1024_S_d0_1 : S4x1024.ReducesTo [0, 1] S_
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S4x1024 .f32) (main_arg5 : FVec F S4x1024x1024 .f32) (main_arg6 : FVec F S512x1024 .f32) (main_arg7 : FVec F S512 .f32) (main_v13 : IVec S_ 1) (main_v16 : IVec S4x1024x512 1) : IVec S_ 1 :=
  let main_c_5 : IVec S_ 1 := constantI S_ 1 1#1
  let main_v17 : IVec S_ 1 := (fun x v => Host.reduce IntOp.andi x v reducesTo_S4x1024x512_S_d0_1_2 h_S_) main_v16 main_c_5
  let main_v18 : IVec S_ 1 := andi main_v13 main_v17
  let main_v19 : FVec F S4x1024 .f32 := Host.absf main_arg4
  let main_cst_6 : FVec F S_ .f32 := constant S_ .f32 0x7F800000#32
  let main_v20 : FVec F S4x1024 .f32 := broadcastInDim S4x1024 ![] bcast_S_S4x1024 main_cst_6
  let main_v21 : IVec S4x1024 1 := cmpf .olt main_v19 main_v20
  let main_c_7 : IVec S_ 1 := constantI S_ 1 1#1
  let main_v22 : IVec S_ 1 := (fun x v => Host.reduce IntOp.andi x v reducesTo_S4x1024_S_d0_1 h_S_) main_v21 main_c_7
  let main_v23 : IVec S_ 1 := andi main_v18 main_v22
  let main_v24 : FVec F S4x1024x1024 .f32 := Host.absf main_arg5
  let main_cst_8 : FVec F S_ .f32 := constant S_ .f32 0x7F800000#32
  let main_v25 : FVec F S4x1024x1024 .f32 := broadcastInDim S4x1024x1024 ![] bcast_S_S4x1024x1024 main_cst_8
  let main_v26 : IVec S4x1024x1024 1 := cmpf .olt main_v24 main_v25
  let main_c_9 : IVec S_ 1 := constantI S_ 1 1#1
  let main_v27 : IVec S_ 1 := (fun x v => Host.reduce IntOp.andi x v reducesTo_S4x1024x1024_S_d0_1_2 h_S_) main_v26 main_c_9
  let main_v28 : IVec S_ 1 := andi main_v23 main_v27
  let main_v29 : FVec F S512x1024 .f32 := Host.absf main_arg6
  let main_cst_10 : FVec F S_ .f32 := constant S_ .f32 0x7F800000#32
  let main_v30 : FVec F S512x1024 .f32 := broadcastInDim S512x1024 ![] bcast_S_S512x1024 main_cst_10
  let main_v31 : IVec S512x1024 1 := cmpf .olt main_v29 main_v30
  let main_c_11 : IVec S_ 1 := constantI S_ 1 1#1
  let main_v32 : IVec S_ 1 := (fun x v => Host.reduce IntOp.andi x v reducesTo_S512x1024_S_d0_1 h_S_) main_v31 main_c_11
  let main_v33 : IVec S_ 1 := andi main_v28 main_v32
  fn_part2 (F := F) main_arg7 main_v33

def fn {F : FTy → Type} [FloatOps F] (main_arg0 : FVec F S16384x512 .f32) (main_arg1 : FVec F S16384x1024 .f32) (main_arg2 : FVec F S16384x1024 .f32) (main_arg3 : FVec F S4x1024x512 .f32) (main_arg4 : FVec F S4x1024 .f32) (main_arg5 : FVec F S4x1024x1024 .f32) (main_arg6 : FVec F S512x1024 .f32) (main_arg7 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S4x1024x512 .f32 := Host.absf main_arg3
  let main_cst_4 : FVec F S_ .f32 := constant S_ .f32 0x7F800000#32
  let main_v15 : FVec F S4x1024x512 .f32 := broadcastInDim S4x1024x512 ![] bcast_S_S4x1024x512 main_cst_4
  let main_v16 : IVec S4x1024x512 1 := cmpf .olt main_v14 main_v15
  fn_part1 (F := F) main_arg4 main_arg5 main_arg6 main_arg7 main_v13 main_v16
-- ==== Kernel.lean ====
abbrev S16384x512 : Shape := ⟨2, ![16384, 512]⟩
abbrev S16384x1024 : Shape := ⟨2, ![16384, 1024]⟩
abbrev S4x1024x512 : Shape := ⟨3, ![4, 1024, 512]⟩
abbrev S4x1024 : Shape := ⟨2, ![4, 1024]⟩
abbrev S4x1024x1024 : Shape := ⟨3, ![4, 1024, 1024]⟩
abbrev S512x1024 : Shape := ⟨2, ![512, 1024]⟩
abbrev S512 : Shape := ⟨1, ![512]⟩
abbrev S4096x512 : Shape := ⟨2, ![4096, 512]⟩
abbrev S4096x1024 : Shape := ⟨2, ![4096, 1024]⟩
abbrev S1x4096 : Shape := ⟨2, ![1, 4096]⟩
abbrev S1x512 : Shape := ⟨2, ![1, 512]⟩
abbrev S1024x512 : Shape := ⟨2, ![1024, 512]⟩
abbrev S1024x1024 : Shape := ⟨2, ![1024, 1024]⟩
abbrev S256x512 : Shape := ⟨2, ![256, 512]⟩
abbrev S256x1024 : Shape := ⟨2, ![256, 1024]⟩
abbrev S256x4096 : Shape := ⟨2, ![256, 4096]⟩

abbrev nBuf : Space → Nat
  | .hbm => 17
  | .vmem => 15
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S16384x1024, .f32⟩
  | .hbm, ⟨3, _⟩ => ⟨S4x1024x512, .f32⟩
  | .hbm, ⟨4, _⟩ => ⟨S4x1024, .f32⟩
  | .hbm, ⟨5, _⟩ => ⟨S4x1024x1024, .f32⟩
  | .hbm, ⟨6, _⟩ => ⟨S512x1024, .f32⟩
  | .hbm, ⟨7, _⟩ => ⟨S512, .f32⟩
  | .hbm, ⟨8, _⟩ => ⟨S4096x512, .f32⟩
  | .hbm, ⟨9, _⟩ => ⟨S4096x512, .bf16⟩
  | .hbm, ⟨10, _⟩ => ⟨S4096x1024, .f32⟩
  | .hbm, ⟨11, _⟩ => ⟨S4096x1024, .bf16⟩
  | .hbm, ⟨12, _⟩ => ⟨S1x4096, .f32⟩
  | .hbm, ⟨13, _⟩ => ⟨S512x1024, .bf16⟩
  | .hbm, ⟨14, _⟩ => ⟨S1x512, .f32⟩
  | .hbm, ⟨15, _⟩ => ⟨S16384x512, .f32⟩
  | .hbm, ⟨16, _⟩ => ⟨S16384x1024, .f32⟩
  | .local _ .vmem, ⟨0, _⟩ => ⟨S1024x512, .f32⟩
  | .local _ .vmem, ⟨1, _⟩ => ⟨S1024x512, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S4096x512, .bf16⟩
  | .local _ .vmem, ⟨7, _⟩ => ⟨S4096x1024, .bf16⟩
  | .local _ .vmem, ⟨8, _⟩ => ⟨S1x4096, .f32⟩
  | .local _ .vmem, ⟨9, _⟩ => ⟨S512x1024, .bf16⟩
  | .local _ .vmem, ⟨10, _⟩ => ⟨S1x512, .f32⟩
  | .local _ .vmem, ⟨11, _⟩ => ⟨S1024x512, .f32⟩
  | .local _ .vmem, ⟨12, _⟩ => ⟨S1024x512, .f32⟩
  | .local _ .vmem, ⟨13, _⟩ => ⟨S1024x1024, .f32⟩
  | .local _ .vmem, ⟨14, _⟩ => ⟨S1024x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_v0_0 : Ref sig .tc := ⟨.hbm, 15, rfl⟩
abbrev main_v0_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S4x1024x512_S4096x512 : S4x1024x512.ShapeCasts S4096x512
  bitsLt_bf16_f32 : FTy.bits .bf16 < FTy.bits .f32
  shapeCasts_S4x1024x1024_S4096x1024 : S4x1024x1024.ShapeCasts S4096x1024
  shapeCasts_S4x1024_S1x4096 : S4x1024.ShapeCasts S1x4096
  shapeCasts_S512_S1x512 : S512.ShapeCasts S1x512
  inb_S1024x512_S256x512_0_0 : ∀ a, (![0, 0] : Fin 2 → Nat) a + S256x512.size a ≤ S1024x512.size a
  h_S256x512 : 0 < S256x512.numel
  inb_S1024x1024_S256x1024_0_0 : ∀ a, (![0, 0] : Fin 2 → Nat) a + S256x1024.size a ≤ S1024x1024.size a
  h_S256x1024 : 0 < S256x1024.numel
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S1024x512_S256x512_256_0 : ∀ a, (![256, 0] : Fin 2 → Nat) a + S256x512.size a ≤ S1024x512.size a
  inb_S1024x1024_S256x1024_256_0 : ∀ a, (![256, 0] : Fin 2 → Nat) a + S256x1024.size a ≤ S1024x1024.size a
  inb_S1024x512_S256x512_512_0 : ∀ a, (![512, 0] : Fin 2 → Nat) a + S256x512.size a ≤ S1024x512.size a
  inb_S1024x1024_S256x1024_512_0 : ∀ a, (![512, 0] : Fin 2 → Nat) a + S256x1024.size a ≤ S1024x1024.size a
  inb_S1024x512_S256x512_768_0 : ∀ a, (![768, 0] : Fin 2 → Nat) a + S256x512.size a ≤ S1024x512.size a
  inb_S1024x1024_S256x1024_768_0 : ∀ a, (![768, 0] : Fin 2 → Nat) a + S256x1024.size a ≤ S1024x1024.size a
  dot_S256x512_S4096x512_S256x4096_1_1_0_0_n_n_wf : DotDims.WF S256x512 S4096x512 S256x4096 [1] [1] [0] [0] [] []
  dot_S256x1024_S4096x1024_S256x4096_1_1_0_0_n_n_wf : DotDims.WF S256x1024 S4096x1024 S256x4096 [1] [1] [0] [0] [] []
  dot_S256x1024_S512x1024_S256x512_1_1_0_0_n_n_wf : DotDims.WF S256x1024 S512x1024 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x1024.size a
  hwx0_1 : ∀ i : grid0.Coords, EltTy.bits .f32 = 32 ∨ (Rect.block (s := S16384x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x1024.size a
  hwx0_2 : ∀ i : grid0.Coords, EltTy.bits .f32 = 32 ∨ (Rect.block (s := S16384x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x512.size a ≤ S4096x512.size a
  hwx0_3 : ∀ i : grid0.Coords, EltTy.bits .bf16 = 32 ∨ (Rect.block (s := S4096x512) S4096x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S512x1024.size a
  hwx0_6 : ∀ i : grid0.Coords, EltTy.bits .bf16 = 32 ∨ (Rect.block (s := S512x1024) S512x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x512.size a ≤ S16384x512.size a
  hwx0_8 : ∀ i : grid0.Coords, EltTy.bits .f32 = 32 ∨ (Rect.block (s := S16384x512) S1024x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S16384x1024.size a
  hwx0_9 : ∀ i : grid0.Coords, EltTy.bits .f32 = 32 ∨ (Rect.block (s := S16384x1024) S1024x1024.size (cc0_transform_9 i) (hinb0_9 i)).WholeWords (EltTy.packing .f32)

variable [Facts₀]

def dot_S256x512_S4096x512_S256x4096_1_1_0_0_n_n : DotDims S256x512 S4096x512 S256x4096 where
  lhsContracting := [1]
  rhsContracting := [1]
  lhsNonContracting := [0]
  rhsNonContracting := [0]
  lhsBatch := []
  rhsBatch := []
  wf := dot_S256x512_S4096x512_S256x4096_1_1_0_0_n_n_wf
def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf
def dot_S256x1024_S512x1024_S256x512_1_1_0_0_n_n : DotDims S256x1024 S512x1024 S256x512 where
  lhsContracting := [1]
  rhsContracting := [1]
  lhsNonContracting := [0]
  rhsNonContracting := [0]
  lhsBatch := []
  rhsBatch := []
  wf := dot_S256x1024_S512x1024_S256x512_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S4096x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v3) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v4) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v5) S512x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v6) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0_0) S1024x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_1) S1024x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16384x512 : Shape := ⟨2, ![16384, 512]⟩
abbrev S16384x1024 : Shape := ⟨2, ![16384, 1024]⟩
abbrev S4x1024x512 : Shape := ⟨3, ![4, 1024, 512]⟩
abbrev S4x1024 : Shape := ⟨2, ![4, 1024]⟩
abbrev S4x1024x1024 : Shape := ⟨3, ![4, 1024, 1024]⟩
abbrev S512x1024 : Shape := ⟨2, ![512, 1024]⟩
abbrev S512 : Shape := ⟨1, ![512]⟩
abbrev S4x1024x16384 : Shape := ⟨3, ![4, 1024, 16384]⟩
abbrev S4x16384x1024 : Shape := ⟨3, ![4, 16384, 1024]⟩
abbrev S4x1x1024 : Shape := ⟨3, ![4, 1, 1024]⟩
abbrev S1x16384x1024 : Shape := ⟨3, ![1, 16384, 1024]⟩
abbrev S_ : Shape := ⟨0, ![]⟩
abbrev S1024x512 : Shape := ⟨2, ![1024, 512]⟩
abbrev S1x512 : Shape := ⟨2, ![1, 512]⟩

abbrev nBuf : Space → Nat
  | .hbm => 59
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S16384x1024, .f32⟩
  | .hbm, ⟨3, _⟩ => ⟨S4x1024x512, .f32⟩
  | .hbm, ⟨4, _⟩ => ⟨S4x1024, .f32⟩
  | .hbm, ⟨5, _⟩ => ⟨S4x1024x1024, .f32⟩
  | .hbm, ⟨6, _⟩ => ⟨S512x1024, .f32⟩
  | .hbm, ⟨7, _⟩ => ⟨S512, .f32⟩
  | .hbm, ⟨8, _⟩ => ⟨S4x1024x16384, .f32⟩
  | .hbm, ⟨9, _⟩ => ⟨S4x16384x1024, .f32⟩
  | .hbm, ⟨10, _⟩ => ⟨S4x1x1024, .f32⟩
  | .hbm, ⟨11, _⟩ => ⟨S4x16384x1024, .f32⟩
  | .hbm, ⟨12, _⟩ => ⟨S4x16384x1024, .f32⟩
  | .hbm, ⟨13, _⟩ => ⟨S4x1024x16384, .f32⟩
  | .hbm, ⟨14, _⟩ => ⟨S4x16384x1024, .f32⟩
  | .hbm, ⟨15, _⟩ => ⟨S4x16384x1024, .f32⟩
  | .hbm, ⟨16, _⟩ => ⟨S1x16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S1x16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S1x16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S1x16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S1024x512, .f32⟩
  | .hbm, ⟨55, _⟩ => ⟨S16384x512, .f32⟩
  | .hbm, ⟨56, _⟩ => ⟨S1x512, .f32⟩
  | .hbm, ⟨57, _⟩ => ⟨S16384x512, .f32⟩
  | .hbm, ⟨58, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]

class Facts₀ : Prop where
  transposes_S4x1024x16384_S4x16384x1024_0_2_1 : S4x1024x16384.Transposes [0, 2, 1] S4x16384x1024
  bcast_S4x1024_S4x1x1024_0_2 : S4x1024.BroadcastsInDim S4x1x1024 (![0, 2] : Fin 2 → Fin S4x1x1024.rank)
  bcast_S4x1x1024_S4x16384x1024_0_1_2 : S4x1x1024.BroadcastsInDim S4x16384x1024 (![0, 1, 2] : Fin 3 → Fin S4x16384x1024.rank)
  slices_S4x16384x1024_S1x16384x1024_0_0_0 : S4x16384x1024.Slices ![0, 0, 0] S1x16384x1024
  shapeCasts_S1x16384x1024_S16384x1024 : S1x16384x1024.ShapeCasts S16384x1024
  bcast_S_S16384x1024 : S_.BroadcastsInDim S16384x1024 (![] : Fin 0 → Fin S16384x1024.rank)
  slices_S4x16384x1024_S1x16384x1024_1_0_0 : S4x16384x1024.Slices ![1, 0, 0] S1x16384x1024
  slices_S4x16384x1024_S1x16384x1024_2_0_0 : S4x16384x1024.Slices ![2, 0, 0] S1x16384x1024
  slices_S4x16384x1024_S1x16384x1024_3_0_0 : S4x16384x1024.Slices ![3, 0, 0] S1x16384x1024
  transposes_S512x1024_S1024x512_1_0 : S512x1024.Transposes [1, 0] S1024x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  dot_S4x1024x512_S16384x512_S4x1024x16384_2_1_01_0_n_n_wf : DotDims.WF S4x1024x512 S16384x512 S4x1024x16384 [2] [1] [0, 1] [0] [] []
  dot_S4x1024x1024_S16384x1024_S4x1024x16384_2_1_01_0_n_n_wf : DotDims.WF S4x1024x1024 S16384x1024 S4x1024x16384 [2] [1] [0, 1] [0] [] []
  dot_S16384x1024_S1024x512_S16384x512_1_0_0_1_n_n_wf : DotDims.WF S16384x1024 S1024x512 S16384x512 [1] [0] [0] [1] [] []

variable [Facts₀]

def dot_S4x1024x512_S16384x512_S4x1024x16384_2_1_01_0_n_n : DotDims S4x1024x512 S16384x512 S4x1024x16384 where
  lhsContracting := [2]
  rhsContracting := [1]
  lhsNonContracting := [0, 1]
  rhsNonContracting := [0]
  lhsBatch := []
  rhsBatch := []
  wf := dot_S4x1024x512_S16384x512_S4x1024x16384_2_1_01_0_n_n_wf
def dot_S4x1024x1024_S16384x1024_S4x1024x16384_2_1_01_0_n_n : DotDims S4x1024x1024 S16384x1024 S4x1024x16384 where
  lhsContracting := [2]
  rhsContracting := [1]
  lhsNonContracting := [0, 1]
  rhsNonContracting := [0]
  lhsBatch := []
  rhsBatch := []
  wf := dot_S4x1024x1024_S16384x1024_S4x1024x16384_2_1_01_0_n_n_wf
def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf

class Facts : Prop extends Facts₀ where

variable [Facts]
-- ==== Proof.LibRowsDot.lean ====
/-
  A product of rows: for matrices `l` of M rows and `r` of N rows, both of width K, the contraction of the second
  axis of each — the dimension numbers ⟨[1], [1], [0], [0], [], []⟩ of `DotDims.transposedRhs` — read at the output
  index (a, b) is the sum over k < K of l[a, k] · r[b, k]. The contraction index of the dimension record is a
  one-coordinate tuple; the sum is re-indexed through that coordinate.
-/
import Idealize.ShloMosaic.PureOps.Ideal.Laws
import Idealize.ShloMosaic.Lib.ValueIdx

noncomputable section

namespace Cert.RowsDot

open Idealize.ShloMosaic Idealize.ShloMosaic.ValueIdx

/-- The left operand's row coordinate is the output's row. -/
theorem lhs_row {M K N : Nat} (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The right operand's row coordinate is the output's column. -/
theorem rhs_row {M K N : Nat} (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The left operand's index at output (a, b) and contraction coordinate k is (a, k). -/
theorem lhs_at {M K N : Nat} (a : Fin M) (b : Fin N) (k : Fin K) :
    (DotDims.transposedRhs M K N).lhsIdx (ix2 a b) ((contrEquiv1 (DotDims.transposedRhs M K N) K rfl rfl).symm k) = ix2 a k := by
  have hk := contrEquiv1_symm_val (DotDims.transposedRhs M K N) K rfl rfl k
  funext x
  apply Fin.ext
  match x with
  | ⟨0, _⟩ => exact lhs_row _ _
  | ⟨1, _⟩ => exact ((DotDims.transposedRhs M K N).lhsIdx_val_of_single rfl _ _).trans hk

/-- The right operand's index there is (b, k). -/
theorem rhs_at {M K N : Nat} (a : Fin M) (b : Fin N) (k : Fin K) :
    (DotDims.transposedRhs M K N).rhsIdx (ix2 a b) ((contrEquiv1 (DotDims.transposedRhs M K N) K rfl rfl).symm k) = ix2 b k := by
  have hk := contrEquiv1_symm_val (DotDims.transposedRhs M K N) K rfl rfl k
  funext x
  apply Fin.ext
  match x with
  | ⟨0, _⟩ => exact rhs_row _ _
  | ⟨1, _⟩ => exact ((DotDims.transposedRhs M K N).rhsIdx_val_of_single rfl _ _).trans hk

/-- The contraction's sum at (a, b) is the sum over the shared width of the two rows' products. -/
theorem sum_at {M K N : Nat} (l : (⟨2, ![M, K]⟩ : Shape).Idx → EReal) (r : (⟨2, ![N, K]⟩ : Shape).Idx → EReal)
    (a : Fin M) (b : Fin N) :
    ∑ q : (DotDims.transposedRhs M K N).contr.Idx,
        l ((DotDims.transposedRhs M K N).lhsIdx (ix2 a b) q) * r ((DotDims.transposedRhs M K N).rhsIdx (ix2 a b) q)
      = ∑ k : Fin K, l (ix2 a k) * r (ix2 b k) := by
  rw [← Equiv.sum_comp (contrEquiv1 (DotDims.transposedRhs M K N) K rfl rfl).symm]
  refine Finset.sum_congr rfl fun k _ => ?_
  rw [lhs_at, rhs_at]

/-- A matrix unit's product into a zero accumulator, at the ideal values: that sum. -/
theorem matmul_zero_at {M K N : Nat} {φ₁ φ₂ : FTy} (l : FVec Ideal ⟨2, ![M, K]⟩ φ₁) (r : FVec Ideal ⟨2, ![N, K]⟩ φ₂)
    (a : Fin M) (b : Fin N) :
    FloatOps.matmul (DotDims.transposedRhs M K N) none l r (constant ⟨2, ![M, N]⟩ .f32 0x00000000#32) (ix2 a b)
      = ∑ k : Fin K, l (ix2 a k) * r (ix2 b k) :=
  (Ideal.matmul_constant_zero_apply _ none l r (ix2 a b)).trans (sum_at l r a b)

/-- The same for any dimension record that IS that one (a printed program names its own). -/
theorem matmul_zero_at_of_eq {M K N : Nat} {φ₁ φ₂ : FTy} (D : DotDims ⟨2, ![M, K]⟩ ⟨2, ![N, K]⟩ ⟨2, ![M, N]⟩)
    (hD : D = DotDims.transposedRhs M K N) (l : FVec Ideal ⟨2, ![M, K]⟩ φ₁) (r : FVec Ideal ⟨2, ![N, K]⟩ φ₂)
    (a : Fin M) (b : Fin N) :
    FloatOps.matmul D none l r (constant ⟨2, ![M, N]⟩ .f32 0x00000000#32) (ix2 a b)
      = ∑ k : Fin K, l (ix2 a k) * r (ix2 b k) := by
  subst hD
  exact matmul_zero_at l r a b

end Cert.RowsDot

end
-- ==== Proof.Spec.lean ====
/-
  The function both programs compute: one step of an LSTM cell followed by an output projection.

  For a batch row r and a hidden unit n the four gate pre-activations are, for γ = 0, 1, 2, 3 (input, output, forget,
  candidate),
      g[γ, r, n] = Σ_k X[r, k] · Wx[γ, n, k] + Σ_k H[r, k] · Wh[γ, n, k] + Bx[γ, n].
  The new hidden state is
      hnew[r, n] = σ(g[1, r, n]) · tanh( σ(g[0, r, n]) · tanh(g[3, r, n]) + σ(g[2, r, n]) · C[r, n] ),
  with σ the logistic function, and the projected output is
      out[r, o] = Σ_n hnew[r, n] · Wo[o, n] + Bo[o].
  Everything is read on the extended reals. The two programs group the three summands of g differently and write
  the products of the two sums with their factors in the other order; both changes are instances of commutativity
  and associativity of + and ·, which hold on the extended reals without any finiteness assumption (`pre_regroup`).
-/
import Idealize.ShloMosaic.PureOps.Ideal.Laws
import Idealize.ShloMosaic.Lib.ValueIdx

noncomputable section

namespace Cert.Cell

open Idealize.ShloMosaic Idealize.ShloMosaic.ValueIdx

/-- A gate's pre-activation from one row of inputs, one row of previous hidden values, the gate unit's two weight
    rows and its bias: the two products summed, then the bias. -/
def pre (x : Fin 512 → EReal) (h : Fin 1024 → EReal) (wx : Fin 512 → EReal) (wh : Fin 1024 → EReal) (b : EReal) : EReal :=
  (∑ k, x k * wx k + ∑ k, h k * wh k) + b

/-- The same three summands with the bias added to the first product before the second, and each product's factors
    exchanged: equal by commutativity and associativity alone. -/
theorem pre_regroup (x : Fin 512 → EReal) (h : Fin 1024 → EReal) (wx : Fin 512 → EReal) (wh : Fin 1024 → EReal) (b : EReal) :
    (∑ k, wx k * x k + b) + ∑ k, wh k * h k = pre x h wx wh b := by
  unfold pre
  rw [Finset.sum_congr rfl (fun k _ => mul_comm (wx k) (x k)), Finset.sum_congr rfl (fun k _ => mul_comm (wh k) (h k))]
  exact add_right_comm _ _ _

/-- The new hidden value from the four gate pre-activations (input, output, forget, candidate) and the old cell
    value. -/
def hidden (gi go gf gz c : EReal) : EReal :=
  Ideal.logistic go * Ideal.tanh (Ideal.logistic gi * Ideal.tanh gz + Ideal.logistic gf * c)

section Arrays

variable (X : (⟨2, ![16384, 512]⟩ : Shape).Idx → EReal) (H C : (⟨2, ![16384, 1024]⟩ : Shape).Idx → EReal)
  (Wx : (⟨3, ![4, 1024, 512]⟩ : Shape).Idx → EReal) (Bx : (⟨2, ![4, 1024]⟩ : Shape).Idx → EReal)
  (Wh : (⟨3, ![4, 1024, 1024]⟩ : Shape).Idx → EReal)
  (Wo : (⟨2, ![512, 1024]⟩ : Shape).Idx → EReal) (Bo : (⟨1, ![512]⟩ : Shape).Idx → EReal)

/-- Gate γ's pre-activation for batch row r and hidden unit n. -/
def gate (γ : Fin 4) (r : Fin 16384) (n : Fin 1024) : EReal :=
  pre (fun k => X (ix2 r k)) (fun k => H (ix2 r k)) (fun k => Wx (ix3 γ n k)) (fun k => Wh (ix3 γ n k)) (Bx (ix2 γ n))

/-- The new hidden state at row r, unit n. -/
def hnewAt (r : Fin 16384) (n : Fin 1024) : EReal :=
  hidden (gate X H Wx Bx Wh ⟨0, by omega⟩ r n) (gate X H Wx Bx Wh ⟨1, by omega⟩ r n) (gate X H Wx Bx Wh ⟨2, by omega⟩ r n)
    (gate X H Wx Bx Wh ⟨3, by omega⟩ r n) (C (ix2 r n))

/-- The projected output at row r, column o. -/
def outAt (r : Fin 16384) (o : Fin 512) : EReal :=
  (∑ n : Fin 1024, hnewAt X H C Wx Bx Wh r n * Wo (ix2 o n)) + Bo (ix1 o)

/-- The new hidden state as a whole array. -/
def hnew : (⟨2, ![16384, 1024]⟩ : Shape).Idx → EReal := fun i => hnewAt X H C Wx Bx Wh (i 0) (i 1)

/-- The projected output as a whole array. -/
def out : (⟨2, ![16384, 512]⟩ : Shape).Idx → EReal := fun i => outAt X H C Wx Bx Wh Wo Bo (i 0) (i 1)

end Arrays

end Cert.Cell

end
-- ==== Proof.Chain.lean ====
/-
  One chain of 256 rows of the kernel's body, read at an index.

  The body treats its 1024-row block as four chains of 256 rows. A chain multiplies its rows of the input and of the
  previous hidden state by the stacked gate weights (4096 rows: gate γ's unit n is row γ·1024 + n), adds the stacked
  bias row, cuts the 4096 columns into the four gates, applies the logistic function and tanh, and stores the new
  hidden rows; it then multiplies those rows by the output weights and adds the output bias. The matrix products
  contract the last axis of both operands, so each entry is a sum over the shared width of products of two rows; the
  changes of float format are the identity on extended reals.
-/
import proofs.«127278_g22874995818703_feedfinal_596_26_alg».proof.Proof.Gen.KernelIdeal.Skeleton
import proofs.«127278_g22874995818703_feedfinal_596_26_alg».proof.Proof.LibRowsDot
import proofs.«127278_g22874995818703_feedfinal_596_26_alg».proof.Proof.Spec
import Idealize.ShloMosaic.Lib.Pipeline.Value
import Idealize.ShloMosaic.Lib.ValueLayout

noncomputable section

namespace Cert.KernelIdeal.Chain

open Cert.KernelIdeal Cert.KernelIdeal.Gen Idealize.ShloMosaic Idealize.ShloMosaic.ValueIdx Cert.Cell

/-- Gate γ's unit n as a row of the stacked weights. -/
abbrev stacked (γ : Nat) (hγ : γ < 4) (n : Fin 1024) : Fin 4096 := ⟨γ * 1024 + n.val, by have := n.isLt; omega⟩

/-- The pre-activations of all four gates for a chain's 256 rows: both products and the bias row. -/
def gates (x : FVec Ideal S256x512 .f32) (h : FVec Ideal S256x1024 .f32) (wx : FVec Ideal S4096x512 .bf16)
    (wh : FVec Ideal S4096x1024 .bf16) (b : FVec Ideal S1x4096 .f32) : FVec Ideal S256x4096 .f32 :=
  addf (addf (matmul dot_S256x512_S4096x512_S256x4096_1_1_0_0_n_n none (truncf .bf16 x bitsLt_bf16_f32)
        (shapeCast S4096x512 wx shapeCasts_S4096x512_S4096x512) (constant S256x4096 .f32 0x00000000#32))
      (matmul dot_S256x1024_S4096x1024_S256x4096_1_1_0_0_n_n none (truncf .bf16 h bitsLt_bf16_f32)
        (shapeCast S4096x1024 wh shapeCasts_S4096x1024_S4096x1024) (constant S256x4096 .f32 0x00000000#32)))
    (broadcastTo S256x4096 (shapeCast S1x4096 b shapeCasts_S1x4096_S1x4096) broadcasts_S1x4096_S256x4096)

/-- Row p, stacked column j of the pre-activations: the two row products summed, plus the bias at j. -/
theorem gates_at (x : FVec Ideal S256x512 .f32) (h : FVec Ideal S256x1024 .f32) (wx : FVec Ideal S4096x512 .bf16)
    (wh : FVec Ideal S4096x1024 .bf16) (b : FVec Ideal S1x4096 .f32) (p : Fin 256) (j : Fin 4096) :
    gates x h wx wh b (ix2 p j)
      = pre (fun k => x (ix2 p k)) (fun k => h (ix2 p k)) (fun k => wx (ix2 j k)) (fun k => wh (ix2 j k)) (b (ix2 (0 : Fin 1) j)) := by
  unfold gates
  rw [shapeCast_self wx, shapeCast_self wh, shapeCast_self b]
  show (FloatOps.matmul dot_S256x512_S4096x512_S256x4096_1_1_0_0_n_n none (truncf .bf16 x bitsLt_bf16_f32) wx
        (constant S256x4096 .f32 0x00000000#32) (ix2 p j)
      + FloatOps.matmul dot_S256x1024_S4096x1024_S256x4096_1_1_0_0_n_n none (truncf .bf16 h bitsLt_bf16_f32) wh
        (constant S256x4096 .f32 0x00000000#32) (ix2 p j))
      + broadcastTo S256x4096 b broadcasts_S1x4096_S256x4096 (ix2 p j) = _
  rw [Cert.RowsDot.matmul_zero_at_of_eq dot_S256x512_S4096x512_S256x4096_1_1_0_0_n_n rfl,
    Cert.RowsDot.matmul_zero_at_of_eq dot_S256x1024_S4096x1024_S256x4096_1_1_0_0_n_n rfl,
    broadcastTo_1b_ab_apply b broadcasts_S1x4096_S256x4096 p j]
  rfl

/-- A chain's new hidden value at row p, unit q: the cell's update of the four gates' pre-activations there and
    the old cell value. -/
theorem hidden_at (x : FVec Ideal S256x512 .f32) (h : FVec Ideal S256x1024 .f32) (wx : FVec Ideal S4096x512 .bf16)
    (wh : FVec Ideal S4096x1024 .bf16) (b : FVec Ideal S1x4096 .f32) (c : FVec Ideal S256x1024 .f32) (p : Fin 256) (q : Fin 1024) :
    k0_pay2 (F := Ideal) x h wx wh b c (ix2 p q)
      = hidden (gates x h wx wh b (ix2 p (stacked 0 (by omega) q))) (gates x h wx wh b (ix2 p (stacked 1 (by omega) q)))
          (gates x h wx wh b (ix2 p (stacked 2 (by omega) q))) (gates x h wx wh b (ix2 p (stacked 3 (by omega) q))) (c (ix2 p q)) := by
  rw [← slice2_axis1_apply 0 (gates x h wx wh b) slices_S256x4096_o0_0_S256x1024 p q (stacked 0 (by omega) q) (by show 0 * 1024 + q.val = 0 + q.val; omega),
    ← slice2_axis1_apply 1024 (gates x h wx wh b) slices_S256x4096_o0_1024_S256x1024 p q (stacked 1 (by omega) q) (by show 1 * 1024 + q.val = 1024 + q.val; omega),
    ← slice2_axis1_apply 2048 (gates x h wx wh b) slices_S256x4096_o0_2048_S256x1024 p q (stacked 2 (by omega) q) (by show 2 * 1024 + q.val = 2048 + q.val; omega),
    ← slice2_axis1_apply 3072 (gates x h wx wh b) slices_S256x4096_o0_3072_S256x1024 p q (stacked 3 (by omega) q) (by show 3 * 1024 + q.val = 3072 + q.val; omega)]
  rfl

/-- The other three chains compute the same function of their loads. -/
theorem pay6_eq : @k0_pay6 Ideal _ = @k0_pay2 Ideal _ := rfl
theorem pay9_eq : @k0_pay9 Ideal _ = @k0_pay2 Ideal _ := rfl
theorem pay12_eq : @k0_pay12 Ideal _ = @k0_pay2 Ideal _ := rfl

/-- A chain's output rows: its new hidden rows times the output weights, plus the output bias row. -/
def outproj (hn : FVec Ideal S256x1024 .f32) (wo : FVec Ideal S512x1024 .bf16) (bo : FVec Ideal S1x512 .f32) : FVec Ideal S256x512 .f32 :=
  addf (matmul dot_S256x1024_S512x1024_S256x512_1_1_0_0_n_n none (truncf .bf16 hn bitsLt_bf16_f32)
      (shapeCast S512x1024 wo shapeCasts_S512x1024_S512x1024) (constant S256x512 .f32 0x00000000#32))
    (broadcastTo S256x512 (shapeCast S1x512 bo shapeCasts_S1x512_S1x512) broadcasts_S1x512_S256x512)

/-- Row p, column o of a chain's output: the hidden row times output-weight row o, plus the bias at o. -/
theorem outproj_at (hn : FVec Ideal S256x1024 .f32) (wo : FVec Ideal S512x1024 .bf16) (bo : FVec Ideal S1x512 .f32) (p : Fin 256) (o : Fin 512) :
    outproj hn wo bo (ix2 p o) = (∑ k : Fin 1024, hn (ix2 p k) * wo (ix2 o k)) + bo (ix2 (0 : Fin 1) o) := by
  unfold outproj
  rw [shapeCast_self wo, shapeCast_self bo]
  show FloatOps.matmul dot_S256x1024_S512x1024_S256x512_1_1_0_0_n_n none (truncf .bf16 hn bitsLt_bf16_f32) wo
        (constant S256x512 .f32 0x00000000#32) (ix2 p o)
      + broadcastTo S256x512 bo broadcasts_S1x512_S256x512 (ix2 p o) = _
  rw [Cert.RowsDot.matmul_zero_at_of_eq dot_S256x1024_S512x1024_S256x512_1_1_0_0_n_n rfl,
    broadcastTo_1b_ab_apply bo broadcasts_S1x512_S256x512 p o]
  rfl

/-- Each chain's stored output is that projection of its own hidden rows. -/
theorem out_pay0 (x : FVec Ideal S256x512 .f32) (h : FVec Ideal S256x1024 .f32) (wx : FVec Ideal S4096x512 .bf16)
    (wh : FVec Ideal S4096x1024 .bf16) (b : FVec Ideal S1x4096 .f32) (c : FVec Ideal S256x1024 .f32)
    (wo : FVec Ideal S512x1024 .bf16) (bo : FVec Ideal S1x512 .f32) :
    k0_pay5 (F := Ideal) (k0_pay3 x h wx wh b c wo) (k0_pay4 bo) = outproj (k0_pay2 x h wx wh b c) wo bo := rfl
theorem out_pay1 (x : FVec Ideal S256x512 .f32) (h : FVec Ideal S256x1024 .f32) (wx : FVec Ideal S4096x512 .bf16)
    (wh : FVec Ideal S4096x1024 .bf16) (b : FVec Ideal S1x4096 .f32) (c : FVec Ideal S256x1024 .f32)
    (wo : FVec Ideal S512x1024 .bf16) (bo : FVec Ideal S1x512 .f32) :
    k0_pay8 (F := Ideal) (k0_pay7 x h wx wh b c wo) bo = outproj (k0_pay2 x h wx wh b c) wo bo := rfl
theorem out_pay2 (x : FVec Ideal S256x512 .f32) (h : FVec Ideal S256x1024 .f32) (wx : FVec Ideal S4096x512 .bf16)
    (wh : FVec Ideal S4096x1024 .bf16) (b : FVec Ideal S1x4096 .f32) (c : FVec Ideal S256x1024 .f32)
    (wo : FVec Ideal S512x1024 .bf16) (bo : FVec Ideal S1x512 .f32) :
    k0_pay11 (F := Ideal) (k0_pay10 x h wx wh b c) wo bo = outproj (k0_pay2 x h wx wh b c) wo bo := rfl
theorem out_pay3 (x : FVec Ideal S256x512 .f32) (h : FVec Ideal S256x1024 .f32) (wx : FVec Ideal S4096x512 .bf16)
    (wh : FVec Ideal S4096x1024 .bf16) (b : FVec Ideal S1x4096 .f32) (c : FVec Ideal S256x1024 .f32)
    (wo : FVec Ideal S512x1024 .bf16) (bo : FVec Ideal S1x512 .f32) :
    k0_pay1 (F := Ideal) (k0_pay12 x h wx wh b c) wo bo = outproj (k0_pay2 x h wx wh b c) wo bo := rfl

end Cert.KernelIdeal.Chain

end
-- ==== Proof.Block.lean ====
/-
  What the body leaves in a 1024-row block of each output, as one function of the block's inputs.

  The body writes each output block through four stores of 256 rows; the rows written by the chain at offset o are
  computed from rows o … o + 255 of the block's input, previous hidden state and cell state, and from the whole
  stacked weights and biases. So row ρ of the block depends only on row ρ of the three batched inputs, whichever
  chain wrote it: the four stores are four pieces of one function of the block index, and together they cover the
  block.
-/
import proofs.«127278_g22874995818703_feedfinal_596_26_alg».proof.Proof.Gen.KernelIdeal.Frame
import proofs.«127278_g22874995818703_feedfinal_596_26_alg».proof.Proof.Chain

noncomputable section

namespace Cert.KernelIdeal.Block

open Cert.KernelIdeal Cert.KernelIdeal.Gen Cert.KernelIdeal.Chain Idealize.ShloMosaic Idealize.ShloMosaic.ValueIdx Cert.Cell

variable (x0 : Vec Ideal S1024x512 .f32) (x1 x2 : Vec Ideal S1024x1024 .f32) (x3 : Vec Ideal S4096x512 .bf16)
  (x4 : Vec Ideal S4096x1024 .bf16) (x5 : Vec Ideal S1x4096 .f32) (x6 : Vec Ideal S512x1024 .bf16) (x7 : Vec Ideal S1x512 .f32)

/-- Gate γ's pre-activation for row ρ of the block and hidden unit n. -/
def blockGate (γ : Nat) (hγ : γ < 4) (ρ : Fin 1024) (n : Fin 1024) : EReal :=
  pre (fun k => x0 (ix2 ρ k)) (fun k => x1 (ix2 ρ k)) (fun k => x3 (ix2 (stacked γ hγ n) k)) (fun k => x4 (ix2 (stacked γ hγ n) k))
    (x5 (ix2 (0 : Fin 1) (stacked γ hγ n)))

/-- The new hidden value at row ρ of the block, unit n. -/
def blockHidden (ρ : Fin 1024) (n : Fin 1024) : EReal :=
  hidden (blockGate x0 x1 x3 x4 x5 0 (by omega) ρ n) (blockGate x0 x1 x3 x4 x5 1 (by omega) ρ n)
    (blockGate x0 x1 x3 x4 x5 2 (by omega) ρ n) (blockGate x0 x1 x3 x4 x5 3 (by omega) ρ n) (x2 (ix2 ρ n))

/-- The projected output at row ρ of the block, column o. -/
def blockOut (ρ : Fin 1024) (o : Fin 512) : EReal :=
  (∑ k : Fin 1024, blockHidden x0 x1 x2 x3 x4 x5 ρ k * x6 (ix2 o k)) + x7 (ix2 (0 : Fin 1) o)

theorem hz : (![0, 0] : Fin 2 → Nat) = fun _ => 0 := funext fun a => by fin_cases a <;> rfl

/-- Rows o … o + 255 of a 512-wide block, read at (p, k): row o + p. -/
theorem ld_rows512 (X : Vec Ideal S1024x512 .f32) (o : Nat) (ho : o + 256 ≤ 1024)
    (inb : ∀ a, (![o, 0] : Fin 2 → Nat) a + S256x512.size a ≤ S1024x512.size a) (p : Fin 256) (k : Fin 512) :
    View.ld X (Rect.unit (s := S1024x512) ![o, 0] S256x512.size inb) (ix2 p k) = X (ix2 ⟨o + p.val, by have := p.isLt; omega⟩ k) := by
  show X ((Rect.unit (s := S1024x512) ![o, 0] S256x512.size inb).idx (ix2 p k)) = _
  refine congrArg X (funext fun a => Fin.ext ?_)
  match a with
  | ⟨0, _⟩ => show o + 1 * p.val = o + p.val; omega
  | ⟨1, _⟩ => show 0 + 1 * k.val = k.val; omega

/-- Rows o … o + 255 of a 1024-wide block, read at (p, k): row o + p. -/
theorem ld_rows1024 (X : Vec Ideal S1024x1024 .f32) (o : Nat) (ho : o + 256 ≤ 1024)
    (inb : ∀ a, (![o, 0] : Fin 2 → Nat) a + S256x1024.size a ≤ S1024x1024.size a) (p : Fin 256) (k : Fin 1024) :
    View.ld X (Rect.unit (s := S1024x1024) ![o, 0] S256x1024.size inb) (ix2 p k) = X (ix2 ⟨o + p.val, by have := p.isLt; omega⟩ k) := by
  show X ((Rect.unit (s := S1024x1024) ![o, 0] S256x1024.size inb).idx (ix2 p k)) = _
  refine congrArg X (funext fun a => Fin.ext ?_)
  match a with
  | ⟨0, _⟩ => show o + 1 * p.val = o + p.val; omega
  | ⟨1, _⟩ => show 0 + 1 * k.val = k.val; omega

/-- The chain at row offset o computes, at its row p and unit q, the block's new hidden value at row o + p. -/
theorem chain_hidden (o : Nat) (ho : o + 256 ≤ 1024)
    (inbX : ∀ a, (![o, 0] : Fin 2 → Nat) a + S256x512.size a ≤ S1024x512.size a)
    (inbH : ∀ a, (![o, 0] : Fin 2 → Nat) a + S256x1024.size a ≤ S1024x1024.size a) (p : Fin 256) (q : Fin 1024) :
    k0_pay2 (F := Ideal) (View.ld x0 (Rect.unit (s := S1024x512) ![o, 0] S256x512.size inbX))
        (View.ld x1 (Rect.unit (s := S1024x1024) ![o, 0] S256x1024.size inbH)) (View.ld x3 r0_2) (View.ld x4 r0_3) (View.ld x5 r0_4)
        (View.ld x2 (Rect.unit (s := S1024x1024) ![o, 0] S256x1024.size inbH)) (ix2 p q)
      = blockHidden x0 x1 x2 x3 x4 x5 ⟨o + p.val, by have := p.isLt; omega⟩ q := by
  simp only [View.ld_unit_zero (S := S4096x512) hz, View.ld_unit_zero (S := S4096x1024) hz, View.ld_unit_zero (S := S1x4096) hz]
  refine (hidden_at _ _ _ _ _ _ p q).trans ?_
  rw [gates_at, gates_at, gates_at, gates_at]
  simp only [ld_rows512 x0 o ho inbX, ld_rows1024 x1 o ho inbH, ld_rows1024 x2 o ho inbH]
  rfl

/-- As a piece of the hidden-state block: the chain's value at a local index is the block function at the index the
    store's rectangle places it. -/
theorem piece_hidden (o : Nat) (ho : o + 256 ≤ 1024)
    (inbX : ∀ a, (![o, 0] : Fin 2 → Nat) a + S256x512.size a ≤ S1024x512.size a)
    (inbH : ∀ a, (![o, 0] : Fin 2 → Nat) a + S256x1024.size a ≤ S1024x1024.size a)
    (x : (Rect.unit (s := S1024x1024) ![o, 0] S256x1024.size inbH).shape.Idx) :
    k0_pay2 (F := Ideal) (View.ld x0 (Rect.unit (s := S1024x512) ![o, 0] S256x512.size inbX))
        (View.ld x1 (Rect.unit (s := S1024x1024) ![o, 0] S256x1024.size inbH)) (View.ld x3 r0_2) (View.ld x4 r0_3) (View.ld x5 r0_4)
        (View.ld x2 (Rect.unit (s := S1024x1024) ![o, 0] S256x1024.size inbH)) x
      = blockHidden x0 x1 x2 x3 x4 x5 ((Rect.unit (s := S1024x1024) ![o, 0] S256x1024.size inbH).emb x 0)
          ((Rect.unit (s := S1024x1024) ![o, 0] S256x1024.size inbH).emb x 1) := by
  obtain ⟨p, q, rfl⟩ : ∃ (p : Fin 256) (q : Fin 1024), x = ix2 p q := ⟨x 0, x 1, eq_ix2 x⟩
  refine (chain_hidden x0 x1 x2 x3 x4 x5 o ho inbX inbH p q).trans ?_
  exact congrArg₂ (blockHidden x0 x1 x2 x3 x4 x5) (Fin.ext (by show o + p.val = o + 1 * p.val; omega))
    (Fin.ext (by show q.val = 0 + 1 * q.val; omega))

/-- The hidden-state block after the body: the block function at every index. -/
theorem hidden_block :
    out0_9 (F := Ideal) x0 x1 x2 x3 x4 x5 x6 x7 = (fun y => blockHidden x0 x1 x2 x3 x4 x5 (y 0) (y 1) : Vec Ideal S1024x1024 .f32) := by
  funext y
  unfold out0_9
  rw [pay12_eq, pay9_eq, pay6_eq]
  refine View.canon_apply_of_pieces (Val := Elt Ideal) (e := .f32) (fun y => blockHidden x0 x1 x2 x3 x4 x5 (y 0) (y 1) : Vec Ideal S1024x1024 .f32) _ ?_ y (cover0_9 _ _ _ _ y)
  intro pc hpc x
  simp only [List.mem_cons, List.not_mem_nil, or_false] at hpc
  rcases hpc with rfl | rfl | rfl | rfl
  · exact piece_hidden x0 x1 x2 x3 x4 x5 768 (by omega) _ _ x
  · exact piece_hidden x0 x1 x2 x3 x4 x5 512 (by omega) _ _ x
  · exact piece_hidden x0 x1 x2 x3 x4 x5 256 (by omega) _ _ x
  · exact piece_hidden x0 x1 x2 x3 x4 x5 0 (by omega) _ _ x

/-- As a piece of the output block: the chain's projected rows at a local index are the block's projected output at
    the index the store's rectangle places it. -/
theorem piece_out (o : Nat) (ho : o + 256 ≤ 1024)
    (inbX : ∀ a, (![o, 0] : Fin 2 → Nat) a + S256x512.size a ≤ S1024x512.size a)
    (inbH : ∀ a, (![o, 0] : Fin 2 → Nat) a + S256x1024.size a ≤ S1024x1024.size a)
    (x : (Rect.unit (s := S1024x512) ![o, 0] S256x512.size inbX).shape.Idx) :
    outproj (k0_pay2 (F := Ideal) (View.ld x0 (Rect.unit (s := S1024x512) ![o, 0] S256x512.size inbX))
        (View.ld x1 (Rect.unit (s := S1024x1024) ![o, 0] S256x1024.size inbH)) (View.ld x3 r0_2) (View.ld x4 r0_3) (View.ld x5 r0_4)
        (View.ld x2 (Rect.unit (s := S1024x1024) ![o, 0] S256x1024.size inbH))) (View.ld x6 r0_5) (View.ld x7 r0_6) x
      = blockOut x0 x1 x2 x3 x4 x5 x6 x7 ((Rect.unit (s := S1024x512) ![o, 0] S256x512.size inbX).emb x 0)
          ((Rect.unit (s := S1024x512) ![o, 0] S256x512.size inbX).emb x 1) := by
  obtain ⟨p, c, rfl⟩ : ∃ (p : Fin 256) (c : Fin 512), x = ix2 p c := ⟨x 0, x 1, eq_ix2 x⟩
  simp only [View.ld_unit_zero (S := S512x1024) hz, View.ld_unit_zero (S := S1x512) hz]
  refine (outproj_at _ _ _ p c).trans ?_
  simp only [chain_hidden x0 x1 x2 x3 x4 x5 o ho inbX inbH]
  show blockOut x0 x1 x2 x3 x4 x5 x6 x7 ⟨o + p.val, by have := p.isLt; omega⟩ c = _
  exact congrArg₂ (blockOut x0 x1 x2 x3 x4 x5 x6 x7) (Fin.ext (by show o + p.val = o + 1 * p.val; omega))
    (Fin.ext (by show c.val = 0 + 1 * c.val; omega))

/-- The output block after the body: the block's projected output at every index. -/
theorem out_block :
    out0_8 (F := Ideal) x0 x1 x2 x3 x4 x5 x6 x7 = (fun y => blockOut x0 x1 x2 x3 x4 x5 x6 x7 (y 0) (y 1) : Vec Ideal S1024x512 .f32) := by
  funext y
  unfold out0_8
  refine View.canon_apply_of_pieces (Val := Elt Ideal) (e := .f32) (fun y => blockOut x0 x1 x2 x3 x4 x5 x6 x7 (y 0) (y 1) : Vec Ideal S1024x512 .f32) _ ?_ y (cover0_8 _ _ _ _ y)
  intro pc hpc x
  simp only [List.mem_cons, List.not_mem_nil, or_false] at hpc
  rcases hpc with rfl | rfl | rfl | rfl
  · refine (congrFun (out_pay3 _ _ _ _ _ _ _ _) x).trans ?_
    exact piece_out x0 x1 x2 x3 x4 x5 x6 x7 768 (by omega) _ _ x
  · refine (congrFun (out_pay2 _ _ _ _ _ _ _ _) x).trans ?_
    exact piece_out x0 x1 x2 x3 x4 x5 x6 x7 512 (by omega) _ _ x
  · refine (congrFun (out_pay1 _ _ _ _ _ _ _ _) x).trans ?_
    exact piece_out x0 x1 x2 x3 x4 x5 x6 x7 256 (by omega) _ _ x
  · refine (congrFun (out_pay0 _ _ _ _ _ _ _ _) x).trans ?_
    exact piece_out x0 x1 x2 x3 x4 x5 x6 x7 0 (by omega) _ _ x

end Cert.KernelIdeal.Block

end
-- ==== Proof.Whole.lean ====
/-
  The kernel's two result arrays after the run, as whole-array functions of the argument arrays.

  The grid has 16 points; point t stages rows 1024·t … 1024·t + 1023 of the input, the previous hidden state and the
  cell state, the whole of the stacked weights, biases, output weights and output bias, and writes back rows
  1024·t … of both outputs. The stacked weights are the host's reshapes of the [4, 1024, ·] arguments (row γ·1024 + n
  is gate γ's unit n; the change of float format is the identity on extended reals), the stacked bias the reshape of
  the [4, 1024] bias, the output bias the reshape of the [512] bias. So row ρ of point t's block function is the cell
  function at row 1024·t + ρ, and the 16 blocks cover the arrays.
-/
import proofs.«127278_g22874995818703_feedfinal_596_26_alg».proof.Proof.Gen.KernelIdeal.Value
import proofs.«127278_g22874995818703_feedfinal_596_26_alg».proof.Proof.Block

noncomputable section

namespace Cert.KernelIdeal.Whole

open Cert.KernelIdeal Cert.KernelIdeal.Gen Cert.KernelIdeal.Chain Cert.KernelIdeal.Block Idealize.ShloMosaic Idealize.ShloMosaic.TcCoe
  Idealize.ShloMosaic.ValueIdx Idealize.SL.Sem Cert.Cell
open Idealize.ShloMosaic.Pipeline (Dat)

/-! ## A block's function, given where its inputs come from -/

section Rows

variable (x0 : Vec Ideal S1024x512 .f32) (x1 x2 : Vec Ideal S1024x1024 .f32) (x3 : Vec Ideal S4096x512 .bf16)
  (x4 : Vec Ideal S4096x1024 .bf16) (x5 : Vec Ideal S1x4096 .f32) (x6 : Vec Ideal S512x1024 .bf16) (x7 : Vec Ideal S1x512 .f32)
  (X : (⟨2, ![16384, 512]⟩ : Shape).Idx → EReal) (H C : (⟨2, ![16384, 1024]⟩ : Shape).Idx → EReal)
  (Wx : (⟨3, ![4, 1024, 512]⟩ : Shape).Idx → EReal) (Bx : (⟨2, ![4, 1024]⟩ : Shape).Idx → EReal)
  (Wh : (⟨3, ![4, 1024, 1024]⟩ : Shape).Idx → EReal)
  (Wo : (⟨2, ![512, 1024]⟩ : Shape).Idx → EReal) (Bo : (⟨1, ![512]⟩ : Shape).Idx → EReal)
  (T : Nat) (hT : T < 16)
  (h0 : ∀ (ρ : Fin 1024) (k : Fin 512), x0 (ix2 ρ k) = X (ix2 ⟨T * 1024 + ρ.val, by have := ρ.isLt; omega⟩ k))
  (h1 : ∀ (ρ : Fin 1024) (k : Fin 1024), x1 (ix2 ρ k) = H (ix2 ⟨T * 1024 + ρ.val, by have := ρ.isLt; omega⟩ k))
  (h2 : ∀ (ρ : Fin 1024) (n : Fin 1024), x2 (ix2 ρ n) = C (ix2 ⟨T * 1024 + ρ.val, by have := ρ.isLt; omega⟩ n))
  (h3 : ∀ (γ : Nat) (hγ : γ < 4) (n : Fin 1024) (k : Fin 512), x3 (ix2 (stacked γ hγ n) k) = Wx (ix3 ⟨γ, hγ⟩ n k))
  (h4 : ∀ (γ : Nat) (hγ : γ < 4) (n : Fin 1024) (k : Fin 1024), x4 (ix2 (stacked γ hγ n) k) = Wh (ix3 ⟨γ, hγ⟩ n k))
  (h5 : ∀ (γ : Nat) (hγ : γ < 4) (n : Fin 1024), x5 (ix2 (0 : Fin 1) (stacked γ hγ n)) = Bx (ix2 ⟨γ, hγ⟩ n))
  (h6 : ∀ (o : Fin 512) (k : Fin 1024), x6 (ix2 o k) = Wo (ix2 o k))
  (h7 : ∀ o : Fin 512, x7 (ix2 (0 : Fin 1) o) = Bo (ix1 o))

include hT h0 h1 h2 h3 h4 h5 in
/-- When the block's batched inputs are rows 1024·T … of the arrays and its stacked weights and bias are the
    arrays' gate planes, its hidden value at row ρ is the cell function at row 1024·T + ρ. -/
theorem blockHidden_rows (ρ n : Fin 1024) :
    blockHidden x0 x1 x2 x3 x4 x5 ρ n = hnewAt X H C Wx Bx Wh ⟨T * 1024 + ρ.val, by have := ρ.isLt; omega⟩ n := by
  unfold blockHidden blockGate hnewAt gate
  simp only [h0, h1, h2, h3, h4, h5]

include hT h0 h1 h2 h3 h4 h5 h6 h7 in
/-- And its projected output at row ρ is the cell function's output at row 1024·T + ρ. -/
theorem blockOut_rows (ρ : Fin 1024) (o : Fin 512) :
    blockOut x0 x1 x2 x3 x4 x5 x6 x7 ρ o = outAt X H C Wx Bx Wh Wo Bo ⟨T * 1024 + ρ.val, by have := ρ.isLt; omega⟩ o := by
  unfold blockOut outAt
  simp only [blockHidden_rows x0 x1 x2 x3 x4 x5 X H C Wx Bx Wh T hT h0 h1 h2 h3 h4 h5, h6, h7]

end Rows

/-! ## Where point t's blocks sit -/

variable (m : (ℓ : Loc nD τ sig) → Buf (Elt Ideal) ℓ) (ρ' : Dev nD → PrngReg)

/-- The printed index maps over the 16 grid points: the batched windows move one block of rows per point, the
    others stay at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- The input block at point t, row ρ: row 1024·t + ρ of the input. -/
theorem read0 (c : Dev nD) (t : Fin cfg0.N) (ρ : Fin 1024) (k : Fin 512) :
    iblk m c 0 t (ix2 ρ k) = (m ((c : Thread nD τ).loc main_arg0)) (ix2 ⟨t.val * 1024 + ρ.val, by have := t.isLt; have hN : cfg0.N = 16 := N_0; have := ρ.isLt; omega⟩ k) := by
  show V m c main_arg0 (((cfg0.win 0).blk t).view.emb (ix2 ρ k)) = _
  rw [V_main_arg0]
  refine congrArg _ (funext fun a => Fin.ext ?_)
  obtain ⟨e0, e1, -⟩ := idx_facts t
  match a with
  | ⟨0, _⟩ => show win0_0.index t (0 : Fin 2) * 1024 + 1 * ρ.val = t.val * 1024 + ρ.val; rw [e0]; omega
  | ⟨1, _⟩ => show win0_0.index t (1 : Fin 2) * 512 + 1 * k.val = k.val; rw [e1]; omega

/-- The previous hidden state's block at point t, row ρ. -/
theorem read1 (c : Dev nD) (t : Fin cfg0.N) (ρ : Fin 1024) (k : Fin 1024) :
    iblk m c 1 t (ix2 ρ k) = (m ((c : Thread nD τ).loc main_arg1)) (ix2 ⟨t.val * 1024 + ρ.val, by have := t.isLt; have hN : cfg0.N = 16 := N_0; have := ρ.isLt; omega⟩ k) := by
  show V m c main_arg1 (((cfg0.win 1).blk t).view.emb (ix2 ρ k)) = _
  rw [V_main_arg1]
  refine congrArg _ (funext fun a => Fin.ext ?_)
  obtain ⟨-, -, e0, e1, -⟩ := idx_facts t
  match a with
  | ⟨0, _⟩ => show win0_1.index t (0 : Fin 2) * 1024 + 1 * ρ.val = t.val * 1024 + ρ.val; rw [e0]; omega
  | ⟨1, _⟩ => show win0_1.index t (1 : Fin 2) * 1024 + 1 * k.val = k.val; rw [e1]; omega

/-- The cell state's block at point t, row ρ. -/
theorem read2 (c : Dev nD) (t : Fin cfg0.N) (ρ : Fin 1024) (k : Fin 1024) :
    iblk m c 2 t (ix2 ρ k) = (m ((c : Thread nD τ).loc main_arg2)) (ix2 ⟨t.val * 1024 + ρ.val, by have := t.isLt; have hN : cfg0.N = 16 := N_0; have := ρ.isLt; omega⟩ k) := by
  show V m c main_arg2 (((cfg0.win 2).blk t).view.emb (ix2 ρ k)) = _
  rw [V_main_arg2]
  refine congrArg _ (funext fun a => Fin.ext ?_)
  obtain ⟨-, -, -, -, e0, e1, -⟩ := idx_facts t
  match a with
  | ⟨0, _⟩ => show win0_2.index t (0 : Fin 2) * 1024 + 1 * ρ.val = t.val * 1024 + ρ.val; rw [e0]; omega
  | ⟨1, _⟩ => show win0_2.index t (1 : Fin 2) * 1024 + 1 * k.val = k.val; rw [e1]; omega

/-! ## The host's reshapes, read at an index -/

/-- The stacked input weights are the reshape of the [4, 1024, 512] argument. -/
theorem stackedWx_eq (c : Dev nD) : @Eq (FVec Ideal S4096x512 .bf16) (V m c main_call0_v1)
    (truncf .bf16 (shapeCast S4096x512 ((m ((c : Thread nD τ).loc main_arg3)) : FVec Ideal S4x1024x512 .f32) shapeCasts_S4x1024x512_S4096x512) bitsLt_bf16_f32) := by
  dsimp only [Gen.V, Gen.hostOps0]; after_results; rfl

/-- The stacked hidden weights are the reshape of the [4, 1024, 1024] argument. -/
theorem stackedWh_eq (c : Dev nD) : @Eq (FVec Ideal S4096x1024 .bf16) (V m c main_call0_v3)
    (truncf .bf16 (shapeCast S4096x1024 ((m ((c : Thread nD τ).loc main_arg5)) : FVec Ideal S4x1024x1024 .f32) shapeCasts_S4x1024x1024_S4096x1024) bitsLt_bf16_f32) := by
  dsimp only [Gen.V, Gen.hostOps0]; after_results; rfl

/-- The stacked bias row is the reshape of the [4, 1024] argument. -/
theorem stackedB_eq (c : Dev nD) : @Eq (FVec Ideal S1x4096 .f32) (V m c main_call0_v4)
    (shapeCast S1x4096 ((m ((c : Thread nD τ).loc main_arg4)) : FVec Ideal S4x1024 .f32) shapeCasts_S4x1024_S1x4096) := by
  dsimp only [Gen.V, Gen.hostOps0]; after_results; rfl

/-- The kernel's output weights are the argument's. -/
theorem wout_eq (c : Dev nD) : @Eq (FVec Ideal S512x1024 .bf16) (V m c main_call0_v5)
    (truncf .bf16 ((m ((c : Thread nD τ).loc main_arg6)) : FVec Ideal S512x1024 .f32) bitsLt_bf16_f32) := by
  dsimp only [Gen.V, Gen.hostOps0]; after_results; rfl

/-- The output bias row is the reshape of the [512] argument. -/
theorem bout_eq (c : Dev nD) : @Eq (FVec Ideal S1x512 .f32) (V m c main_call0_v6)
    (shapeCast S1x512 ((m ((c : Thread nD τ).loc main_arg7)) : FVec Ideal S512 .f32) shapeCasts_S512_S1x512) := by
  dsimp only [Gen.V, Gen.hostOps0]; after_results; rfl

/-- The stacked input weights' block (the whole array, at every point): row γ·1024 + n is gate γ's unit n. -/
theorem read3 (c : Dev nD) (t : Fin cfg0.N) (γ : Nat) (hγ : γ < 4) (n : Fin 1024) (k : Fin 512) :
    iblk m c 3 t (ix2 (stacked γ hγ n) k) = (m ((c : Thread nD τ).loc main_arg3)) (ix3 ⟨γ, hγ⟩ n k) := by
  show (V m c main_call0_v1 : FVec Ideal S4096x512 .bf16) (((cfg0.win 3).blk t).view.emb (ix2 (stacked γ hγ n) k)) = _
  rw [stackedWx_eq]
  refine shapeCast_apply (s := S4x1024x512) (t := S4096x512) _ shapeCasts_S4x1024x512_S4096x512 _ (ix3 ⟨γ, hγ⟩ n k) ?_
  rw [Shape.rowMajor_val_three, Shape.rowMajor_val_two]
  obtain ⟨-, -, -, -, -, -, e0, e1, -⟩ := idx_facts t
  show (γ * 1024 + n.val) * 512 + k.val = (win0_3.index t (0 : Fin 2) * 4096 + 1 * (γ * 1024 + n.val)) * 512 + (win0_3.index t (1 : Fin 2) * 512 + 1 * k.val)
  rw [e0, e1]; omega

/-- The stacked hidden weights' block. -/
theorem read4 (c : Dev nD) (t : Fin cfg0.N) (γ : Nat) (hγ : γ < 4) (n : Fin 1024) (k : Fin 1024) :
    iblk m c 4 t (ix2 (stacked γ hγ n) k) = (m ((c : Thread nD τ).loc main_arg5)) (ix3 ⟨γ, hγ⟩ n k) := by
  show (V m c main_call0_v3 : FVec Ideal S4096x1024 .bf16) (((cfg0.win 4).blk t).view.emb (ix2 (stacked γ hγ n) k)) = _
  rw [stackedWh_eq]
  refine shapeCast_apply (s := S4x1024x1024) (t := S4096x1024) _ shapeCasts_S4x1024x1024_S4096x1024 _ (ix3 ⟨γ, hγ⟩ n k) ?_
  rw [Shape.rowMajor_val_three, Shape.rowMajor_val_two]
  obtain ⟨-, -, -, -, -, -, -, -, e0, e1, -⟩ := idx_facts t
  show (γ * 1024 + n.val) * 1024 + k.val = (win0_4.index t (0 : Fin 2) * 4096 + 1 * (γ * 1024 + n.val)) * 1024 + (win0_4.index t (1 : Fin 2) * 1024 + 1 * k.val)
  rw [e0, e1]; omega

/-- The stacked bias row's block. -/
theorem read5 (c : Dev nD) (t : Fin cfg0.N) (γ : Nat) (hγ : γ < 4) (n : Fin 1024) :
    iblk m c 5 t (ix2 (0 : Fin 1) (stacked γ hγ n)) = (m ((c : Thread nD τ).loc main_arg4)) (ix2 ⟨γ, hγ⟩ n) := by
  show (V m c main_call0_v4 : FVec Ideal S1x4096 .f32) (((cfg0.win 5).blk t).view.emb (ix2 (0 : Fin 1) (stacked γ hγ n))) = _
  rw [stackedB_eq]
  refine shapeCast_apply (s := S4x1024) (t := S1x4096) _ shapeCasts_S4x1024_S1x4096 _ (ix2 ⟨γ, hγ⟩ n) ?_
  rw [Shape.rowMajor_val_two, Shape.rowMajor_val_two]
  obtain ⟨-, -, -, -, -, -, -, -, -, -, e0, e1, -⟩ := idx_facts t
  show γ * 1024 + n.val = (win0_5.index t (0 : Fin 2) * 1 + 1 * 0) * 4096 + (win0_5.index t (1 : Fin 2) * 4096 + 1 * (γ * 1024 + n.val))
  rw [e0, e1]; omega

/-- The output weights' block. -/
theorem read6 (c : Dev nD) (t : Fin cfg0.N) (o : Fin 512) (k : Fin 1024) :
    iblk m c 6 t (ix2 o k) = (m ((c : Thread nD τ).loc main_arg6)) (ix2 o k) := by
  show (V m c main_call0_v5 : FVec Ideal S512x1024 .bf16) (((cfg0.win 6).blk t).view.emb (ix2 o k)) = _
  rw [wout_eq]
  show ((m ((c : Thread nD τ).loc main_arg6)) : FVec Ideal S512x1024 .f32) (((cfg0.win 6).blk t).view.emb (ix2 o k)) = _
  refine congrArg _ (funext fun a => Fin.ext ?_)
  obtain ⟨-, -, -, -, -, -, -, -, -, -, -, -, e0, e1, -⟩ := idx_facts t
  match a with
  | ⟨0, _⟩ => show win0_6.index t (0 : Fin 2) * 512 + 1 * o.val = o.val; rw [e0]; omega
  | ⟨1, _⟩ => show win0_6.index t (1 : Fin 2) * 1024 + 1 * k.val = k.val; rw [e1]; omega

/-- The output bias row's block. -/
theorem read7 (c : Dev nD) (t : Fin cfg0.N) (o : Fin 512) :
    iblk m c 7 t (ix2 (0 : Fin 1) o) = (m ((c : Thread nD τ).loc main_arg7)) (ix1 o) := by
  show (V m c main_call0_v6 : FVec Ideal S1x512 .f32) (((cfg0.win 7).blk t).view.emb (ix2 (0 : Fin 1) o)) = _
  rw [bout_eq]
  refine shapeCast_apply (s := S512) (t := S1x512) _ shapeCasts_S512_S1x512 _ (ix1 o) ?_
  rw [Shape.rowMajor_val_one, Shape.rowMajor_val_two]
  obtain ⟨-, -, -, -, -, -, -, -, -, -, -, -, -, -, e0, e1, -⟩ := idx_facts t
  show o.val = (win0_7.index t (0 : Fin 2) * 1 + 1 * 0) * 512 + (win0_7.index t (1 : Fin 2) * 512 + 1 * o.val)
  rw [e0, e1]; omega

/-! ## What each point writes back, the cover, and the arrays after the run -/

/-- The cell function's new hidden state of the launch arrays. -/
abbrev hnewOf (c : Dev nD) : S16384x1024.Idx → EReal := hnew (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The cell function's projected output of the launch arrays. -/
abbrev outOf (c : Dev nD) : S16384x512.Idx → EReal := out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

theorem lt16 (t : Fin cfg0.N) : t.val < 16 := by have := t.isLt; have hN : cfg0.N = 16 := N_0; omega

/-- Point t writes back rows 1024·t … of the new hidden state. -/
theorem flushed9_eq (c : Dev nD) (t : Fin cfg0.N) :
    (dats m 0 c).flushed 9 t = ((cfg0.win 9).blk t).view.read (Elt Ideal) (hnewOf m c) := by
  rw [Value.flushed9]
  funext y
  obtain ⟨ρ, n, rfl⟩ : ∃ (ρ : Fin 1024) (n : Fin 1024), y = ix2 ρ n := ⟨y 0, y 1, eq_ix2 y⟩
  show out0_9 (iblk m c 0 t) (iblk m c 1 t) (iblk m c 2 t) (iblk m c 3 t) (iblk m c 4 t) (iblk m c 5 t) (iblk m c 6 t) (iblk m c 7 t) (ix2 ρ n) = hnewOf m c (((cfg0.win 9).blk t).view.emb (ix2 ρ n))
  refine (congrFun (hidden_block (iblk m c 0 t) (iblk m c 1 t) (iblk m c 2 t) (iblk m c 3 t) (iblk m c 4 t) (iblk m c 5 t) (iblk m c 6 t) (iblk m c 7 t)) (ix2 ρ n)).trans ?_
  show blockHidden (iblk m c 0 t) (iblk m c 1 t) (iblk m c 2 t) (iblk m c 3 t) (iblk m c 4 t) (iblk m c 5 t) ρ n = _
  refine (blockHidden_rows (iblk m c 0 t) (iblk m c 1 t) (iblk m c 2 t) (iblk m c 3 t) (iblk m c 4 t) (iblk m c 5 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) t.val (lt16 t) (read0 m c t) (read1 m c t) (read2 m c t) (read3 m c t) (read4 m c t) (read5 m c t) ρ n).trans ?_
  obtain ⟨-, -, -, -, -, -, -, -, -, -, -, -, -, -, -, -, -, -, e0, e1⟩ := idx_facts t
  show hnewAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨t.val * 1024 + ρ.val, _⟩ n
    = hnewAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 9).blk t).view.emb (ix2 ρ n) 0) (((cfg0.win 9).blk t).view.emb (ix2 ρ n) 1)
  exact congrArg₂ (hnewAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
    (Fin.ext (by show t.val * 1024 + ρ.val = win0_9.index t (0 : Fin 2) * 1024 + 1 * ρ.val; rw [e0]; omega))
    (Fin.ext (by show n.val = win0_9.index t (1 : Fin 2) * 1024 + 1 * n.val; rw [e1]; omega))

/-- Point t writes back rows 1024·t … of the projected output. -/
theorem flushed8_eq (c : Dev nD) (t : Fin cfg0.N) :
    (dats m 0 c).flushed 8 t = ((cfg0.win 8).blk t).view.read (Elt Ideal) (outOf m c) := by
  rw [Value.flushed8]
  funext y
  obtain ⟨ρ, o, rfl⟩ : ∃ (ρ : Fin 1024) (o : Fin 512), y = ix2 ρ o := ⟨y 0, y 1, eq_ix2 y⟩
  show out0_8 (iblk m c 0 t) (iblk m c 1 t) (iblk m c 2 t) (iblk m c 3 t) (iblk m c 4 t) (iblk m c 5 t) (iblk m c 6 t) (iblk m c 7 t) (ix2 ρ o) = outOf m c (((cfg0.win 8).blk t).view.emb (ix2 ρ o))
  refine (congrFun (out_block (iblk m c 0 t) (iblk m c 1 t) (iblk m c 2 t) (iblk m c 3 t) (iblk m c 4 t) (iblk m c 5 t) (iblk m c 6 t) (iblk m c 7 t)) (ix2 ρ o)).trans ?_
  show blockOut (iblk m c 0 t) (iblk m c 1 t) (iblk m c 2 t) (iblk m c 3 t) (iblk m c 4 t) (iblk m c 5 t) (iblk m c 6 t) (iblk m c 7 t) ρ o = _
  refine (blockOut_rows (iblk m c 0 t) (iblk m c 1 t) (iblk m c 2 t) (iblk m c 3 t) (iblk m c 4 t) (iblk m c 5 t) (iblk m c 6 t) (iblk m c 7 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) t.val (lt16 t) (read0 m c t) (read1 m c t) (read2 m c t) (read3 m c t) (read4 m c t) (read5 m c t) (read6 m c t) (read7 m c t) ρ o).trans ?_
  obtain ⟨-, -, -, -, -, -, -, -, -, -, -, -, -, -, -, -, e0, e1, -⟩ := idx_facts t
  show outAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) ⟨t.val * 1024 + ρ.val, _⟩ o
    = outAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 8).blk t).view.emb (ix2 ρ o) 0) (((cfg0.win 8).blk t).view.emb (ix2 ρ o) 1)
  exact congrArg₂ (outAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
    (Fin.ext (by show t.val * 1024 + ρ.val = win0_8.index t (0 : Fin 2) * 1024 + 1 * ρ.val; rw [e0]; omega))
    (Fin.ext (by show o.val = win0_8.index t (1 : Fin 2) * 512 + 1 * o.val; rw [e1]; omega))

/-- An index of the hidden-state array is in point t's block iff each coordinate is in the block's range. -/
theorem mem_blk9 (t : Fin cfg0.N) (i : S16384x1024.Idx) :
    i ∈ ((cfg0.win 9).blk t).view.set ↔ ∀ a : Fin 2, win0_9.index t a * S1024x1024.size a ≤ (i a).val
      ∧ (i a).val < win0_9.index t a * S1024x1024.size a + S1024x1024.size a := by
  show i ∈ ((View.whole main_v0_1).slice (win0_9.rect t)).set ↔ _
  rw [View.set_slice_whole, Rect.mem_set_unit]
  exact Iff.rfl

/-- The same for the output array. -/
theorem mem_blk8 (t : Fin cfg0.N) (i : S16384x512.Idx) :
    i ∈ ((cfg0.win 8).blk t).view.set ↔ ∀ a : Fin 2, win0_8.index t a * S1024x512.size a ≤ (i a).val
      ∧ (i a).val < win0_8.index t a * S1024x512.size a + S1024x512.size a := by
  show i ∈ ((View.whole main_v0_0).slice (win0_8.rect t)).set ↔ _
  rw [View.set_slice_whole, Rect.mem_set_unit]
  exact Iff.rfl

/-- Row r of the hidden-state array is in the block of point r / 1024. -/
theorem cover9 (i : S16384x1024.Idx) :
    ∃ t : Fin cfg0.N, (cfg0.win 9).flush t = true ∧ i ∈ ((cfg0.win 9).blk t).view.set := by
  have hN : cfg0.N = 16 := N_0
  have h0 : (i 0).val < 16384 := (i 0).isLt
  have h1 : (i 1).val < 1024 := (i 1).isLt
  refine ⟨⟨(i 0).val / 1024, by omega⟩, flush0_9 _, ?_⟩
  rw [mem_blk9]
  obtain ⟨-, -, -, -, -, -, -, -, -, -, -, -, -, -, -, -, -, -, e0, e1⟩ := idx_facts ⟨(i 0).val / 1024, by omega⟩
  intro a
  match a with
  | ⟨0, _⟩ =>
    show win0_9.index ⟨(i 0).val / 1024, _⟩ (0 : Fin 2) * 1024 ≤ (i 0).val ∧ (i 0).val < win0_9.index ⟨(i 0).val / 1024, _⟩ (0 : Fin 2) * 1024 + 1024
    rw [e0]; show (i 0).val / 1024 * 1024 ≤ (i 0).val ∧ (i 0).val < (i 0).val / 1024 * 1024 + 1024; omega
  | ⟨1, _⟩ =>
    show win0_9.index ⟨(i 0).val / 1024, _⟩ (1 : Fin 2) * 1024 ≤ (i 1).val ∧ (i 1).val < win0_9.index ⟨(i 0).val / 1024, _⟩ (1 : Fin 2) * 1024 + 1024
    rw [e1]; omega

/-- Row r of the output array is in the block of point r / 1024. -/
theorem cover8 (i : S16384x512.Idx) :
    ∃ t : Fin cfg0.N, (cfg0.win 8).flush t = true ∧ i ∈ ((cfg0.win 8).blk t).view.set := by
  have hN : cfg0.N = 16 := N_0
  have h0 : (i 0).val < 16384 := (i 0).isLt
  have h1 : (i 1).val < 512 := (i 1).isLt
  refine ⟨⟨(i 0).val / 1024, by omega⟩, flush0_8 _, ?_⟩
  rw [mem_blk8]
  obtain ⟨-, -, -, -, -, -, -, -, -, -, -, -, -, -, -, -, e0, e1, -⟩ := idx_facts ⟨(i 0).val / 1024, by omega⟩
  intro a
  match a with
  | ⟨0, _⟩ =>
    show win0_8.index ⟨(i 0).val / 1024, _⟩ (0 : Fin 2) * 1024 ≤ (i 0).val ∧ (i 0).val < win0_8.index ⟨(i 0).val / 1024, _⟩ (0 : Fin 2) * 1024 + 1024
    rw [e0]; show (i 0).val / 1024 * 1024 ≤ (i 0).val ∧ (i 0).val < (i 0).val / 1024 * 1024 + 1024; omega
  | ⟨1, _⟩ =>
    show win0_8.index ⟨(i 0).val / 1024, _⟩ (1 : Fin 2) * 512 ≤ (i 1).val ∧ (i 1).val < win0_8.index ⟨(i 0).val / 1024, _⟩ (1 : Fin 2) * 512 + 512
    rw [e1]; omega

/-- The hidden-state array after the run. -/
theorem final9 (c : Dev nD) : (dats m 0 c).arrAt 9 cfg0.N = hnewOf m c :=
  (dats m 0 c).arrAt_eq_of_cover 9 (hnewOf m c) (fun t _ => flushed9_eq m c t) cover9

/-- The output array after the run. -/
theorem final8 (c : Dev nD) : (dats m 0 c).arrAt 8 cfg0.N = outOf m c :=
  (dats m 0 c).arrAt_eq_of_cover 8 (outOf m c) (fun t _ => flushed8_eq m c t) cover8

/-- The kernel's run: both result arrays at the cell function of the launch arrays, the arguments unchanged. -/
theorem run : θ_run defs (onTc (τ := τ) (main (F := Ideal))) ⟨m, fun _ => 0, ρ'⟩ fun r => ∀ c : Dev nD,
      r.2.mem ((c : Thread nD τ).loc main_v0_0) = outOf m c
      ∧ r.2.mem ((c : Thread nD τ).loc main_v0_1) = hnewOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final8 m c), (h c).2.1.trans (final9 m c), (h c).2.2⟩)
    (Value.run_blocks m ρ')

end Cert.KernelIdeal.Whole

end
-- ==== Proof.RefRead.lean ====
/-
  The reference, read at an index, is the cell function.

  The reference computes the four gates at once as a stacked array [4, 16384, 1024]: a contraction of the input
  weights with the inputs, transposed so that the batch axis comes second, plus the bias broadcast along the batch
  axis, plus the same contraction for the hidden weights. Gate γ is plane γ of that array, flattened to
  [16384, 1024]. Its logistic function is spelt 1 / (1 + exp(−x)), which is the logistic function on every extended
  real. The output is the contraction of the new hidden state with the transposed output weights plus the bias row.
-/
import proofs.«127278_g22874995818703_feedfinal_596_26_alg».proof.Proof.Gen.ReferenceIdeal.Read
import proofs.«127278_g22874995818703_feedfinal_596_26_alg».proof.Proof.Spec
import Idealize.ShloMosaic.Lib.IdealHost

noncomputable section

namespace Cert.ReferenceIdeal.Hand

open Cert.ReferenceIdeal Cert.ReferenceIdeal.Read Idealize.ShloMosaic Idealize.ShloMosaic.ValueIdx Cert.Cell

variable (x0 : (⟨S16384x512, .f32⟩ : BufTy).Contents (Elt Ideal)) (x1 x2 : (⟨S16384x1024, .f32⟩ : BufTy).Contents (Elt Ideal)) (x3 : (⟨S4x1024x512, .f32⟩ : BufTy).Contents (Elt Ideal))
  (x4 : (⟨S4x1024, .f32⟩ : BufTy).Contents (Elt Ideal)) (x5 : (⟨S4x1024x1024, .f32⟩ : BufTy).Contents (Elt Ideal)) (x6 : (⟨S512x1024, .f32⟩ : BufTy).Contents (Elt Ideal)) (x7 : (⟨S512, .f32⟩ : BufTy).Contents (Elt Ideal))

/-- Entry (γ, r, n) of the stacked pre-activations is gate γ's pre-activation for row r and unit n: the reference
    adds the bias before the second product and writes each product weight-first. -/
theorem gate_read (γ : Fin 4) (r : Fin 16384) (n : Fin 1024) :
    val_main_v7 (F := Ideal) x0 x1 x3 x4 x5 (ix3 γ r n) = gate x0 x1 x3 x4 x5 γ r n := by
  rw [val_main_v7_apply, val_main_v4_apply, val_main_v1_apply, val_main_v0_apply, val_main_v3_apply, val_main_v2_apply,
    val_main_v6_apply, val_main_v5_apply]
  have e1 : ∀ k : Fin 512, lidx_main_v0 (idx_main_v1 (ix3 γ r n)) k = ix3 γ n k := fun k => funext fun a => Fin.ext (by
    match a with | ⟨0, _⟩ => rfl | ⟨1, _⟩ => rfl | ⟨2, _⟩ => rfl)
  have e2 : ∀ k : Fin 512, ridx_main_v0 (idx_main_v1 (ix3 γ r n)) k = ix2 r k := fun k => funext fun a => Fin.ext (by
    match a with | ⟨0, _⟩ => rfl | ⟨1, _⟩ => rfl)
  have e3 : idx_main_v2 (idx_main_v3 (ix3 γ r n)) = ix2 γ n := funext fun a => Fin.ext (by
    match a with | ⟨0, _⟩ => rfl | ⟨1, _⟩ => rfl)
  have e4 : ∀ k : Fin 1024, lidx_main_v5 (idx_main_v6 (ix3 γ r n)) k = ix3 γ n k := fun k => funext fun a => Fin.ext (by
    match a with | ⟨0, _⟩ => rfl | ⟨1, _⟩ => rfl | ⟨2, _⟩ => rfl)
  have e5 : ∀ k : Fin 1024, ridx_main_v5 (idx_main_v6 (ix3 γ r n)) k = ix2 r k := fun k => funext fun a => Fin.ext (by
    match a with | ⟨0, _⟩ => rfl | ⟨1, _⟩ => rfl)
  simp only [e1, e2, e3, e4, e5]
  exact pre_regroup (fun k => x0 (ix2 r k)) (fun k => x1 (ix2 r k)) (fun k => x3 (ix3 γ n k)) (fun k => x5 (ix3 γ n k)) (x4 (ix2 γ n))

/-- Flattening plane 0 of the stacked array: (r, n) reads entry (0, r, n). -/
theorem plane0 (r : Fin 16384) (n : Fin 1024) : idx_main_v8 (idx_main_v9 (ix2 r n)) = ix3 (⟨0, by omega⟩ : Fin 4) r n :=
  funext fun a => Fin.ext (by
    have hr := r.isLt; have hn := n.isLt
    match a with
    | ⟨0, _⟩ => rfl
    | ⟨1, _⟩ => show (r.val * 1024 + n.val) / 1024 % 16384 = r.val; omega
    | ⟨2, _⟩ => show (r.val * 1024 + n.val) % 1024 = n.val; omega)
theorem plane1 (r : Fin 16384) (n : Fin 1024) : idx_main_v16 (idx_main_v17 (ix2 r n)) = ix3 (⟨1, by omega⟩ : Fin 4) r n :=
  funext fun a => Fin.ext (by
    have hr := r.isLt; have hn := n.isLt
    match a with
    | ⟨0, _⟩ => rfl
    | ⟨1, _⟩ => show (r.val * 1024 + n.val) / 1024 % 16384 = r.val; omega
    | ⟨2, _⟩ => show (r.val * 1024 + n.val) % 1024 = n.val; omega)
theorem plane2 (r : Fin 16384) (n : Fin 1024) : idx_main_v24 (idx_main_v25 (ix2 r n)) = ix3 (⟨2, by omega⟩ : Fin 4) r n :=
  funext fun a => Fin.ext (by
    have hr := r.isLt; have hn := n.isLt
    match a with
    | ⟨0, _⟩ => rfl
    | ⟨1, _⟩ => show (r.val * 1024 + n.val) / 1024 % 16384 = r.val; omega
    | ⟨2, _⟩ => show (r.val * 1024 + n.val) % 1024 = n.val; omega)
theorem plane3 (r : Fin 16384) (n : Fin 1024) : idx_main_v32 (idx_main_v33 (ix2 r n)) = ix3 (⟨3, by omega⟩ : Fin 4) r n :=
  funext fun a => Fin.ext (by
    have hr := r.isLt; have hn := n.isLt
    match a with
    | ⟨0, _⟩ => rfl
    | ⟨1, _⟩ => show (r.val * 1024 + n.val) / 1024 % 16384 = r.val; omega
    | ⟨2, _⟩ => show (r.val * 1024 + n.val) % 1024 = n.val; omega)

/-- One over one plus the exponential of the negation, with the ones written as float words, is the logistic function. -/
theorem logistic_spelt (g : EReal) :
    FloatOps.hostDivf (F := Ideal) (φ := .f32) (FloatOps.ofBits .f32 0x3F800000#32)
      (FloatOps.addf (FloatOps.ofBits .f32 0x3F800000#32) (FloatOps.hostUnary .exp (FloatOps.hostNegf g))) = Ideal.logistic g := by
  show Ideal.div (Ideal.ofBits .f32 0x3F800000#32) (Ideal.ofBits .f32 0x3F800000#32 + Ideal.exp (-g)) = Ideal.div 1 (1 + Ideal.exp (-g))
  rw [Ideal.ofBits_one_f32]

/-- The input gate. -/
theorem gate0_read (r : Fin 16384) (n : Fin 1024) :
    val_main_v15 (F := Ideal) x0 x1 x3 x4 x5 (ix2 r n) = Ideal.logistic (gate x0 x1 x3 x4 x5 ⟨0, by omega⟩ r n) := by
  rw [val_main_v15_apply, val_main_v14_apply, val_main_cst_0_apply, val_main_v13_apply, val_main_v12_apply, val_main_cst_apply,
    val_main_v11_apply, val_main_v10_apply, val_main_v9_apply, val_main_v8_apply, plane0, gate_read]
  exact logistic_spelt _

/-- The output gate. -/
theorem gate1_read (r : Fin 16384) (n : Fin 1024) :
    val_main_v23 (F := Ideal) x0 x1 x3 x4 x5 (ix2 r n) = Ideal.logistic (gate x0 x1 x3 x4 x5 ⟨1, by omega⟩ r n) := by
  rw [val_main_v23_apply, val_main_v22_apply, val_main_cst_2_apply, val_main_v21_apply, val_main_v20_apply, val_main_cst_1_apply,
    val_main_v19_apply, val_main_v18_apply, val_main_v17_apply, val_main_v16_apply, plane1, gate_read]
  exact logistic_spelt _

/-- The forget gate. -/
theorem gate2_read (r : Fin 16384) (n : Fin 1024) :
    val_main_v31 (F := Ideal) x0 x1 x3 x4 x5 (ix2 r n) = Ideal.logistic (gate x0 x1 x3 x4 x5 ⟨2, by omega⟩ r n) := by
  rw [val_main_v31_apply, val_main_v30_apply, val_main_cst_4_apply, val_main_v29_apply, val_main_v28_apply, val_main_cst_3_apply,
    val_main_v27_apply, val_main_v26_apply, val_main_v25_apply, val_main_v24_apply, plane2, gate_read]
  exact logistic_spelt _

/-- The candidate. -/
theorem gate3_read (r : Fin 16384) (n : Fin 1024) :
    val_main_v34 (F := Ideal) x0 x1 x3 x4 x5 (ix2 r n) = Ideal.tanh (gate x0 x1 x3 x4 x5 ⟨3, by omega⟩ r n) := by
  rw [val_main_v34_apply, val_main_v33_apply, val_main_v32_apply, plane3, gate_read]
  rfl

/-- The reference's new hidden state at (r, n). -/
theorem hnew_read (r : Fin 16384) (n : Fin 1024) :
    val_main_v39 (F := Ideal) x0 x1 x2 x3 x4 x5 (ix2 r n) = hnewAt x0 x1 x2 x3 x4 x5 r n := by
  rw [val_main_v39_apply, val_main_v38_apply, val_main_v37_apply, val_main_v36_apply, val_main_v35_apply,
    gate0_read, gate1_read, gate2_read, gate3_read]
  rfl

/-- The reference's new hidden state is the cell function's. -/
theorem hnew_eq : val_main_v39 (F := Ideal) x0 x1 x2 x3 x4 x5 = hnew x0 x1 x2 x3 x4 x5 := by
  funext i
  obtain ⟨r, n, rfl⟩ : ∃ (r : Fin 16384) (n : Fin 1024), i = ix2 r n := ⟨i 0, i 1, eq_ix2 i⟩
  exact hnew_read x0 x1 x2 x3 x4 x5 r n

/-- The reference's output is the cell function's projected output. -/
theorem out_eq : val_main_v44 (F := Ideal) x0 x1 x2 x3 x4 x5 x6 x7 = out x0 x1 x2 x3 x4 x5 x6 x7 := by
  funext i
  obtain ⟨r, o, rfl⟩ : ∃ (r : Fin 16384) (o : Fin 512), i = ix2 r o := ⟨i 0, i 1, eq_ix2 i⟩
  rw [val_main_v44_apply, val_main_v41_apply, val_main_v43_apply, val_main_v42_apply]
  have e1 : ∀ k : Fin 1024, lidx_main_v41 (ix2 r o) k = ix2 r k := fun k => funext fun a => Fin.ext (by
    match a with | ⟨0, _⟩ => rfl | ⟨1, _⟩ => rfl)
  have e2 : ∀ k : Fin 1024, idx_main_v40 (ridx_main_v41 (ix2 r o) k) = ix2 o k := fun k => funext fun a => Fin.ext (by
    match a with | ⟨0, _⟩ => rfl | ⟨1, _⟩ => rfl)
  have e3 : idx_main_v42 (idx_main_v43 (ix2 r o)) = ix1 o := funext fun a => Fin.ext (by
    match a with | ⟨0, _⟩ => rfl)
  simp only [val_main_v40_apply, e1, e2, e3, hnew_read]
  rfl

end Cert.ReferenceIdeal.Hand

end
-- ==== Proof.lean ====
/-
  A fused LSTM cell step against its reference, on the extended reals.

  Both programs compute, for every batch row r, the four gate pre-activations
      g[γ, r, n] = Σ_k X[r, k] · Wx[γ, n, k] + Σ_k H[r, k] · Wh[γ, n, k] + Bx[γ, n],
  the new hidden state  hnew = σ(g₁) · tanh(σ(g₀) · tanh(g₃) + σ(g₂) · C)  and the projection
  out[r, o] = Σ_n hnew[r, n] · Wo[o, n] + Bo[o]  (Proof/Spec.lean).
  The kernel does this 1024 rows at a time over a grid of 16 points, each block as four chains of 256 rows, against
  weights the host has stacked gate after gate; the reference does it for all rows at once with the gates as planes
  of a [4, 16384, 1024] array. The two differ in how the three summands of g are grouped and in the order of the
  factors of each product: equal by commutativity and associativity on the extended reals, so no finiteness of the
  inputs is used. Changes of float format are the identity there, a matrix product into a zero accumulator is the
  plain sum of products, and the reference's 1 / (1 + exp(−x)) is the logistic function.

  Proof/Chain.lean reads one chain of the body at an index; Proof/Block.lean shows the four chains' stores are pieces
  of one function of the block; Proof/Whole.lean places the blocks in the arrays and reads the run;
  Proof/RefRead.lean reads the reference. The frames are the generated ones; the idealization rewrote nothing.
-/
import proofs.«127278_g22874995818703_feedfinal_596_26_alg».proof.Defs
import proofs.«127278_g22874995818703_feedfinal_596_26_alg».proof.Proof.Gen.Kernel
import proofs.«127278_g22874995818703_feedfinal_596_26_alg».proof.Proof.Gen.Kernel.Skeleton
import proofs.«127278_g22874995818703_feedfinal_596_26_alg».proof.Proof.Gen.Kernel.Launch
import proofs.«127278_g22874995818703_feedfinal_596_26_alg».proof.Proof.Gen.Kernel.Points
import proofs.«127278_g22874995818703_feedfinal_596_26_alg».proof.Proof.Gen.Kernel.Frame
import proofs.«127278_g22874995818703_feedfinal_596_26_alg».proof.Proof.Gen.KernelIdeal
import proofs.«127278_g22874995818703_feedfinal_596_26_alg».proof.Proof.Gen.KernelIdeal.Skeleton
import proofs.«127278_g22874995818703_feedfinal_596_26_alg».proof.Proof.Gen.KernelIdeal.Launch
import proofs.«127278_g22874995818703_feedfinal_596_26_alg».proof.Proof.Gen.KernelIdeal.Points
import proofs.«127278_g22874995818703_feedfinal_596_26_alg».proof.Proof.Gen.KernelIdeal.Frame
import proofs.«127278_g22874995818703_feedfinal_596_26_alg».proof.Proof.Gen.ReferenceIdeal
import proofs.«127278_g22874995818703_feedfinal_596_26_alg».proof.Proof.Gen.Pre_finite_inputs
import proofs.«127278_g22874995818703_feedfinal_596_26_alg».proof.Proof.Gen.KernelIdeal.Value
import proofs.«127278_g22874995818703_feedfinal_596_26_alg».proof.Proof.Gen.ReferenceIdeal.Run
import proofs.«127278_g22874995818703_feedfinal_596_26_alg».proof.Proof.Gen.ReferenceIdeal.Read
import proofs.«127278_g22874995818703_feedfinal_596_26_alg».proof.Proof.Whole
import proofs.«127278_g22874995818703_feedfinal_596_26_alg».proof.Proof.RefRead
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of host operations: its run, with the two results forgotten. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From arguments that agree, the kernel's two arrays end at the cell function of the arguments, and so do the
    reference's: the projected output first, the new hidden state second. -/
theorem algebraic : Cert.algebraic_KernelIdeal_ReferenceIdeal := by
  intro m ρ m' ρ' _ hagree
  refine ⟨fun c => Cert.KernelIdeal.Whole.outOf m c, fun c => Cert.KernelIdeal.Whole.hnewOf m c,
    Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7⟩ := hagree c
    rw [Cert.ReferenceIdeal.Read.val_main_v44_eq, Cert.ReferenceIdeal.Hand.out_eq, a0, a1, a2, a3, a4, a5, a6, a7]
  · obtain ⟨a0, a1, a2, a3, a4, a5, -⟩ := hagree c
    refine (Cert.ReferenceIdeal.Read.val_main_v39_eq _ _ _ _ _ _).trans ?_
    rw [Cert.ReferenceIdeal.Hand.hnew_eq, a0, a1, a2, a3, a4, a5]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
